-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x48 : Shape := ⟨2, ![128, 48]⟩
abbrev S48 : Shape := ⟨1, ![48]⟩
abbrev S48x32 : Shape := ⟨2, ![48, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x48 : S_.BroadcastsInDim S128x48 (![] : Fin 0 → Fin S128x48.rank)
  reducesTo_S128x48_S_d0_1 : S128x48.ReducesTo [0, 1] S_
  bcast_S_S48 : S_.BroadcastsInDim S48 (![] : Fin 0 → Fin S48.rank)
  reducesTo_S48_S_d0 : S48.ReducesTo [0] S_
  bcast_S_S48x32 : S_.BroadcastsInDim S48x32 (![] : Fin 0 → Fin S48x32.rank)
  reducesTo_S48x32_S_d0_1 : S48x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S48x32 .f32) (main_arg6 : FVec F S32 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S48x32 .f32 := Host.absf main_arg5
  let main_cst_6 : FVec F S_ .f32 := constant S_ .f32 0x7F800000#32
  let main_v20 : FVec F S48x32 .f32 := broadcastInDim S48x32 ![] bcast_S_S48x32 main_cst_6
  let main_v21 : IVec S48x32 1 := cmpf .olt main_v19 main_v20
  let main_c_7 : IVec S_ 1 := constantI S_ 1 1#1
  let main_v22 : IVec S_ 1 := (fun x v => Host.reduce IntOp.andi x v reducesTo_S48x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x48 .f32) (main_arg4 : FVec F S48 .f32) (main_arg5 : FVec F S48x32 .f32) (main_arg6 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x48 .f32 := Host.absf main_arg3
  let main_cst_2 : FVec F S_ .f32 := constant S_ .f32 0x7F800000#32
  let main_v10 : FVec F S128x48 .f32 := broadcastInDim S128x48 ![] bcast_S_S128x48 main_cst_2
  let main_v11 : IVec S128x48 1 := cmpf .olt main_v9 main_v10
  let main_c_3 : IVec S_ 1 := constantI S_ 1 1#1
  let main_v12 : IVec S_ 1 := (fun x v => Host.reduce IntOp.andi x v reducesTo_S128x48_S_d0_1 h_S_) main_v11 main_c_3
  let main_v13 : IVec S_ 1 := andi main_v8 main_v12
  let main_v14 : FVec F S48 .f32 := Host.absf main_arg4
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x48 : Shape := ⟨2, ![128, 48]⟩
abbrev S48 : Shape := ⟨1, ![48]⟩
abbrev S48x32 : Shape := ⟨2, ![48, 32]⟩
abbrev S32 : Shape := ⟨1, ![32]⟩
abbrev S1x1600000 : Shape := ⟨2, ![1, 1600000]⟩
abbrev S_ : Shape := ⟨0, ![]⟩
abbrev S100000 : Shape := ⟨1, ![100000]⟩
abbrev S1600000x1 : Shape := ⟨2, ![1600000, 1]⟩
abbrev S100000x48 : Shape := ⟨2, ![100000, 48]⟩
abbrev S10000x128 : Shape := ⟨2, ![10000, 128]⟩
abbrev S10000x48 : Shape := ⟨2, ![10000, 48]⟩
abbrev S1600000x48 : Shape := ⟨2, ![1600000, 48]⟩
abbrev S100000x1 : Shape := ⟨2, ![100000, 1]⟩
abbrev S1x48 : Shape := ⟨2, ![1, 48]⟩
abbrev S100000x32 : Shape := ⟨2, ![100000, 32]⟩
abbrev S10000x32 : Shape := ⟨2, ![10000, 32]⟩
abbrev S1600000x32 : Shape := ⟨2, ![1600000, 32]⟩
abbrev S1x32 : Shape := ⟨2, ![1, 32]⟩

abbrev nBuf : Space → Nat
  | .hbm => 119
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x48, .f32⟩
  | .hbm, ⟨4, _⟩ => ⟨S48, .f32⟩
  | .hbm, ⟨5, _⟩ => ⟨S48x32, .f32⟩
  | .hbm, ⟨6, _⟩ => ⟨S32, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000x48, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S1600000, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000, .f32⟩
  | .hbm, ⟨46, _⟩ => ⟨S1600000, .f32⟩
  | .hbm, ⟨47, _⟩ => ⟨S1600000x1, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x48, .f32⟩
  | .hbm, ⟨57, _⟩ => ⟨S1600000x48, .f32⟩
  | .hbm, ⟨58, _⟩ => ⟨S1600000x48, .f32⟩
  | .hbm, ⟨59, _⟩ => ⟨S_, .f32⟩
  | .hbm, ⟨60, _⟩ => ⟨S100000x48, .f32⟩
  | .hbm, ⟨61, _⟩ => ⟨S1600000x1, .i32⟩
  | .hbm, ⟨62, _⟩ => ⟨S100000x48, .f32⟩
  | .hbm, ⟨63, _⟩ => ⟨S100000, .f32⟩
  | .hbm, ⟨64, _⟩ => ⟨S100000x1, .f32⟩
  | .hbm, ⟨65, _⟩ => ⟨S100000x48, .f32⟩
  | .hbm, ⟨66, _⟩ => ⟨S100000x48, .f32⟩
  | .hbm, ⟨67, _⟩ => ⟨S100000x48, .f32⟩
  | .hbm, ⟨68, _⟩ => ⟨S1x48, .f32⟩
  | .hbm, ⟨69, _⟩ => ⟨S100000x48, .f32⟩
  | .hbm, ⟨70, _⟩ => ⟨S100000x48, .f32⟩
  | .hbm, ⟨71, _⟩ => ⟨S_, .f32⟩
  | .hbm, ⟨72, _⟩ => ⟨S100000x48, .f32⟩
  | .hbm, ⟨73, _⟩ => ⟨S100000x48, .f32⟩
  | .hbm, ⟨74, _⟩ => ⟨S100000x32, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000, .f32⟩
  | .hbm, ⟨84, _⟩ => ⟨S1600000, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1600000, .f32⟩
  | .hbm, ⟨94, _⟩ => ⟨S1600000, .f32⟩
  | .hbm, ⟨95, _⟩ => ⟨S1600000x1, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x32, .f32⟩
  | .hbm, ⟨105, _⟩ => ⟨S1600000x32, .f32⟩
  | .hbm, ⟨106, _⟩ => ⟨S1600000x32, .f32⟩
  | .hbm, ⟨107, _⟩ => ⟨S_, .f32⟩
  | .hbm, ⟨108, _⟩ => ⟨S100000x32, .f32⟩
  | .hbm, ⟨109, _⟩ => ⟨S1600000x1, .i32⟩
  | .hbm, ⟨110, _⟩ => ⟨S100000x32, .f32⟩
  | .hbm, ⟨111, _⟩ => ⟨S100000, .f32⟩
  | .hbm, ⟨112, _⟩ => ⟨S100000x1, .f32⟩
  | .hbm, ⟨113, _⟩ => ⟨S100000x32, .f32⟩
  | .hbm, ⟨114, _⟩ => ⟨S100000x32, .f32⟩
  | .hbm, ⟨115, _⟩ => ⟨S100000x32, .f32⟩
  | .hbm, ⟨116, _⟩ => ⟨S1x32, .f32⟩
  | .hbm, ⟨117, _⟩ => ⟨S100000x32, .f32⟩
  | .hbm, ⟨118, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x48, .f32⟩
  | .local _ .vmem, ⟨3, _⟩ => ⟨S10000x48, .f32⟩
  | .local _ .vmem, ⟨4, _⟩ => ⟨S10000x48, .f32⟩
  | .local _ .vmem, ⟨5, _⟩ => ⟨S10000x48, .f32⟩
  | .local _ .vmem, ⟨6, _⟩ => ⟨S10000x48, .f32⟩
  | .local _ .vmem, ⟨7, _⟩ => ⟨S48x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_c_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_v70 : Ref sig .tc := ⟨.hbm, 97, rfl⟩
abbrev main_v71 : Ref sig .tc := ⟨.hbm, 98, rfl⟩
abbrev main_c_14 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_15 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S48x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x48_S128x48_0_0 : ∀ a, (![0, 0] : Fin 2 → Nat) a + S128x48.size a ≤ S128x48.size a
  h_S128x48 : 0 < S128x48.numel
  inb_S10000x48_S10000x48_0_0 : ∀ a, (![0, 0] : Fin 2 → Nat) a + S10000x48.size a ≤ S10000x48.size a
  h_S10000x48 : 0 < S10000x48.numel
  bcast_S_S1600000 : S_.BroadcastsInDim S1600000 (![] : Fin 0 → Fin S1600000.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  shapeCasts_S10000x48_S10000x48 : S10000x48.ShapeCasts S10000x48
  inb_S48x32_S48x32_0_0 : ∀ a, (![0, 0] : Fin 2 → Nat) a + S48x32.size a ≤ S48x32.size a
  h_S48x32 : 0 < S48x32.numel
  inb_S10000x32_S10000x32_0_0 : ∀ a, (![0, 0] : Fin 2 → Nat) a + S10000x32.size a ≤ S10000x32.size a
  h_S10000x32 : 0 < S10000x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  dot_S10000x128_S128x48_S10000x48_1_0_0_1_n_n_wf : DotDims.WF S10000x128 S128x48 S10000x48 [1] [0] [0] [1] [] []
  gather_S100000_S1600000x1_S1600000_n_0_n_n_0_1_1_wf : GatherDims.WF S100000 S1600000x1 S1600000 [] [0] [] [0] [] 1 ![1]
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S10000x48_S48x32_S10000x32_1_0_0_1_n_n_wf : DotDims.WF S10000x48 S48x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x48.size a ≤ S128x48.size a
  hwx0_1 : ∀ i : grid0.Coords, EltTy.bits .f32 = 32 ∨ (Rect.block (s := S128x48) S128x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x48.size a ≤ S100000x48.size a
  hwx0_2 : ∀ i : grid0.Coords, EltTy.bits .f32 = 32 ∨ (Rect.block (s := S100000x48) S10000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S100000x48.size a
  hwx1_0 : ∀ i : grid1.Coords, EltTy.bits .f32 = 32 ∨ (Rect.block (s := S100000x48) S10000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S48x32.size a ≤ S48x32.size a
  hwx1_1 : ∀ i : grid1.Coords, EltTy.bits .f32 = 32 ∨ (Rect.block (s := S48x32) S48x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x48_S10000x48_1_0_0_1_n_n : DotDims S10000x128 S128x48 S10000x48 where
  lhsContracting := [1]
  rhsContracting := [0]
  lhsNonContracting := [0]
  rhsNonContracting := [1]
  lhsBatch := []
  rhsBatch := []
  wf := dot_S10000x128_S128x48_S10000x48_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S10000x48_S48x32_S10000x32_1_0_0_1_n_n : DotDims S10000x48 S48x32 S10000x32 where
  lhsContracting := [1]
  rhsContracting := [0]
  lhsNonContracting := [0]
  rhsNonContracting := [1]
  lhsBatch := []
  rhsBatch := []
  wf := dot_S10000x48_S48x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S10000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S48x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x48 : Shape := ⟨2, ![128, 48]⟩
abbrev S48 : Shape := ⟨1, ![48]⟩
abbrev S48x32 : Shape := ⟨2, ![48, 32]⟩
abbrev S32 : Shape := ⟨1, ![32]⟩
abbrev S1x1600000 : Shape := ⟨2, ![1, 1600000]⟩
abbrev S100000x48 : Shape := ⟨2, ![100000, 48]⟩
abbrev S_ : Shape := ⟨0, ![]⟩
abbrev S100000 : Shape := ⟨1, ![100000]⟩
abbrev S1600000x1 : Shape := ⟨2, ![1600000, 1]⟩
abbrev S1600000x48 : Shape := ⟨2, ![1600000, 48]⟩
abbrev S100000x1 : Shape := ⟨2, ![100000, 1]⟩
abbrev S1x48 : Shape := ⟨2, ![1, 48]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x1600000, .i32⟩
  | 2 => ⟨S1600000, .f32⟩
  | 3 => ⟨S128x48, .f32⟩
  | 4 => ⟨S48, .f32⟩
  | 5 => ⟨S48x32, .f32⟩
  | 6 => ⟨S32, .f32⟩
  | 7 => ⟨S1x1600000, .i32⟩
  | 8 => ⟨S1600000, .i32⟩
  | 9 => ⟨S1x1600000, .i32⟩
  | 10 => ⟨S1600000, .i32⟩
  | 11 => ⟨S100000x48, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S1600000x1, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x48, .f32⟩
  | 57 => ⟨S1600000x48, .f32⟩
  | 58 => ⟨S1600000x48, .f32⟩
  | 59 => ⟨S_, .f32⟩
  | 60 => ⟨S100000x48, .f32⟩
  | 61 => ⟨S1600000x1, .i32⟩
  | 62 => ⟨S100000x48, .f32⟩
  | 63 => ⟨S100000, .f32⟩
  | 64 => ⟨S100000x1, .f32⟩
  | 65 => ⟨S100000x48, .f32⟩
  | 66 => ⟨S100000x48, .f32⟩
  | 67 => ⟨S100000x48, .f32⟩
  | 68 => ⟨S1x48, .f32⟩
  | 69 => ⟨S100000x48, .f32⟩
  | 70 => ⟨S100000x48, .f32⟩
  | 71 => ⟨S_, .f32⟩
  | 72 => ⟨S100000x48, .f32⟩
  | 73 => ⟨S100000x48, .f32⟩
  | 74 => ⟨S100000x32, .f32⟩
  | 75 => ⟨S_, .f32⟩
  | 76 => ⟨S100000, .f32⟩
  | 77 => ⟨S1600000x1, .i32⟩
  | 78 => ⟨S100000, .f32⟩
  | 79 => ⟨S_, .f32⟩
  | 80 => ⟨S100000, .f32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000, .f32⟩
  | 99 => ⟨S1600000, .f32⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000, .f32⟩
  | 109 => ⟨S1600000, .f32⟩
  | 110 => ⟨S1600000x1, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x32, .f32⟩
  | 120 => ⟨S1600000x32, .f32⟩
  | 121 => ⟨S1600000x32, .f32⟩
  | 122 => ⟨S_, .f32⟩
  | 123 => ⟨S100000x32, .f32⟩
  | 124 => ⟨S1600000x1, .i32⟩
  | 125 => ⟨S100000x32, .f32⟩
  | 126 => ⟨S100000, .f32⟩
  | 127 => ⟨S100000x1, .f32⟩
  | _ => ⟨S100000x128, .f32⟩

abbrev hbmTy0_1 (i : Nat) : BufTy := match i % 128 with
  | 0 => ⟨S100000x32, .f32⟩
  | 1 => ⟨S100000x32, .f32⟩
  | 2 => ⟨S100000x32, .f32⟩
  | 3 => ⟨S1x32, .f32⟩
  | 4 => ⟨S100000x32, .f32⟩
  | 5 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  bcast_S100000_S100000x1_0 : S100000.BroadcastsInDim S100000x1 (![0] : Fin 1 → Fin S100000x1.rank)
  bcast_S100000x1_S100000x48_0_1 : S100000x1.BroadcastsInDim S100000x48 (![0, 1] : Fin 2 → Fin S100000x48.rank)
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x48_S100000x48_1_0_0_1_n_n_wf : DotDims.WF S100000x128 S128x48 S100000x48 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x32_S100000x32_1_0_0_1_n_n_wf : DotDims.WF S100000x48 S48x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x48_S100000x48_1_0_0_1_n_n : DotDims S100000x128 S128x48 S100000x48 where
  lhsContracting := [1]
  rhsContracting := [0]
  lhsNonContracting := [0]
  rhsNonContracting := [1]
  lhsBatch := []
  rhsBatch := []
  wf := dot_S100000x128_S128x48_S100000x48_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x32_S100000x32_1_0_0_1_n_n : DotDims S100000x48 S48x32 S100000x32 where
  lhsContracting := [1]
  rhsContracting := [0]
  lhsNonContracting := [0]
  rhsNonContracting := [1]
  lhsBatch := []
  rhsBatch := []
  wf := dot_S100000x48_S48x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.GcnSpec.lean ====
/-
  Two graph-convolution layers as ONE function of the argument arrays, over any float format.

  The graph is a table of edges: row 0 of `ei` holds each edge's source node, row 1 its destination, `ew` its weight.
  With a self-loop of weight 1 at every node, node `i` has degree `deg i = 1 + ∑ (edges into i) ew`, and
  `dinv i = deg i ^ (-1/2)` where the degree is positive, `0` elsewhere.  A layer sends features `h` (one row per node) to

      out i = ∑ (edges e into i) dinv (src e) · ew e · dinv (dst e) · h (src e)  +  dinv i · dinv i · h i  +  b,

  and the whole network is `layer₂ (relu (layer₁ (x · W1)) · W2)`.  Everything here is written with the host's array
  operations, so that both programs' results are this term of their arguments; the two matrix products are the only
  place where the programs differ, and the layers take the product as an argument `h`.
-/
import proofs.«138308_j34883724378711_1_alg».proof.Proof.Gen.ReferenceIdeal

noncomputable section

namespace Cert.Gcn

open Idealize.ShloMosaic Cert.ReferenceIdeal Cert.ReferenceIdeal.Gen

variable {F : FTy → Type} [FloatOps F]

/-- The edges' source nodes: row 0 of the edge table. -/
def srcOf (ei : Vec F S2x1600000 .i32) : Vec F S1600000 .i32 :=
  shapeCast _ (extractStridedSlice S1x1600000 ![0, 0] ei slices_S2x1600000_S1x1600000_0_0) shapeCasts_S1x1600000_S1600000

/-- The edges' destination nodes: row 1 of the edge table. -/
def dstOf (ei : Vec F S2x1600000 .i32) : Vec F S1600000 .i32 :=
  shapeCast _ (extractStridedSlice S1x1600000 ![1, 0] ei slices_S2x1600000_S1x1600000_1_0) shapeCasts_S1x1600000_S1600000

/-- A negative node number counts from the end: it is shifted up by the number of nodes. -/
def wrap (v : Vec F S1600000 .i32) : Vec F S1600000 .i32 :=
  select (cmpi .slt v (broadcastInDim S1600000 ![] bcast_S_S1600000 (constantI S_ 32 0#32))) (addi v (broadcastInDim S1600000 ![] bcast_S_S1600000 (constantI S_ 32 100000#32))) v

/-- A node's degree: one for its self-loop plus the weights of the edges that end at it. -/
def degOf (dst : Vec F S1600000 .i32) (ew : FVec F S1600000 .f32) : FVec F S100000 .f32 :=
  addf (Host.scatterAdd scatter_S100000_S1600000x1_S1600000_n_0_0_1 (broadcastInDim S100000 ![] bcast_S_S100000 (constant S_ .f32 0x00000000#32)) (broadcastInDim S1600000x1 ![0] bcast_S1600000_S1600000x1_0 dst) ew) (broadcastInDim S100000 ![] bcast_S_S100000 (constant S_ .f32 0x3F800000#32))

/-- The degree to the power -1/2 where the degree is positive, zero elsewhere. -/
def dinvOf (dst : Vec F S1600000 .i32) (ew : FVec F S1600000 .f32) : FVec F S100000 .f32 :=
  select (cmpf .ogt (degOf dst ew) (broadcastInDim S100000 ![] bcast_S_S100000 (constant S_ .f32 0x00000000#32))) (Host.rsqrt (degOf dst ew)) (broadcastInDim S100000 ![] bcast_S_S100000 (id (constant S_ .f32 0x00000000#32)))

/-- An edge's normalised weight: `dinv (src e) · ew e · dinv (dst e)`. -/
def edgeNorm (dinv : FVec F S100000 .f32) (src dst : Vec F S1600000 .i32) (ew : FVec F S1600000 .f32) : FVec F S1600000 .f32 :=
  mulf (mulf (Host.gather gather_S100000_S1600000x1_S1600000_n_0_n_n_0_1_1 dinv (broadcastInDim S1600000x1 ![0] bcast_S1600000_S1600000x1_0 (wrap src))) ew) (Host.gather gather_S100000_S1600000x1_S1600000_n_0_n_n_0_1_1 dinv (broadcastInDim S1600000x1 ![0] bcast_S1600000_S1600000x1_0 (wrap dst)))

/-- The first layer's aggregation over 48 features: the messages `norm e · h (src e)` summed at their destinations, the
    self-loop term `dinv² · h`, and the bias. -/
def layer48 (h : FVec F S100000x48 .f32) (dinv : FVec F S100000 .f32) (src dst : Vec F S1600000 .i32) (ew : FVec F S1600000 .f32)
    (b : FVec F S48 .f32) : FVec F S100000x48 .f32 :=
  addf (addf (Host.scatterAdd scatter_S100000x48_S1600000x1_S1600000x48_1_0_0_1 (broadcastInDim S100000x48 ![] bcast_S_S100000x48 (constant S_ .f32 0x00000000#32)) (broadcastInDim S1600000x1 ![0] bcast_S1600000_S1600000x1_0 dst) (mulf (broadcastInDim S1600000x48 ![0, 1] bcast_S1600000x1_S1600000x48_0_1 (broadcastInDim S1600000x1 ![0] bcast_S1600000_S1600000x1_0 (edgeNorm dinv src dst ew))) (Host.gather gather_S100000x48_S1600000x1_S1600000x48_1_0_n_n_0_1_148 h (broadcastInDim S1600000x1 ![0] bcast_S1600000_S1600000x1_0 (wrap src))))) (mulf (broadcastInDim S100000x48 ![0, 1] bcast_S100000x1_S100000x48_0_1 (broadcastInDim S100000x1 ![0] bcast_S100000_S100000x1_0 (mulf dinv dinv))) h)) (broadcastInDim S100000x48 ![0, 1] bcast_S1x48_S100000x48_0_1 (broadcastInDim S1x48 ![1] bcast_S48_S1x48_1 b))

/-- Negative entries replaced by zero. -/
def relu48 (z : FVec F S100000x48 .f32) : FVec F S100000x48 .f32 :=
  maximumf z (broadcastInDim S100000x48 ![] bcast_S_S100000x48 (constant S_ .f32 0x00000000#32))

/-- The second layer's aggregation over 32 features. -/
def layer32 (h : FVec F S100000x32 .f32) (dinv : FVec F S100000 .f32) (src dst : Vec F S1600000 .i32) (ew : FVec F S1600000 .f32)
    (b : FVec F S32 .f32) : FVec F S100000x32 .f32 :=
  addf (addf (Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 dst) (mulf (broadcastInDim S1600000x32 ![0, 1] bcast_S1600000x1_S1600000x32_0_1 (broadcastInDim S1600000x1 ![0] bcast_S1600000_S1600000x1_0 (edgeNorm dinv src dst ew))) (Host.gather gather_S100000x32_S1600000x1_S1600000x32_1_0_n_n_0_1_132 h (broadcastInDim S1600000x1 ![0] bcast_S1600000_S1600000x1_0 (wrap src))))) (mulf (broadcastInDim S100000x32 ![0, 1] bcast_S100000x1_S100000x32_0_1 (broadcastInDim S100000x1 ![0] bcast_S100000_S100000x1_0 (mulf dinv dinv))) h)) (broadcastInDim S100000x32 ![0, 1] bcast_S1x32_S100000x32_0_1 (broadcastInDim S1x32 ![1] bcast_S32_S1x32_1 b))

/-- The network: the second layer of the rectified first layer, each applied to a matrix product of its input. -/
def gcn (x : FVec F S100000x128 .f32) (ei : Vec F S2x1600000 .i32) (ew : FVec F S1600000 .f32) (W1 : FVec F S128x48 .f32)
    (b1 : FVec F S48 .f32) (W2 : FVec F S48x32 .f32) (b2 : FVec F S32 .f32) : FVec F S100000x32 .f32 :=
  layer32 (Host.dotGeneral dot_S100000x48_S48x32_S100000x32_1_0_0_1_n_n none
      (relu48 (layer48 (Host.dotGeneral dot_S100000x128_S128x48_S100000x48_1_0_0_1_n_n none x W1)
        (dinvOf (dstOf ei) ew) (srcOf ei) (dstOf ei) ew b1)) W2)
    (dinvOf (dstOf ei) ew) (srcOf ei) (dstOf ei) ew b2

end Cert.Gcn

end
-- ==== Proof.RefValue.lean ====
/-
  The reference computes the two-layer network `Cert.Gcn.gcn` of its arguments: its operations, composed, are that term.
  (The reference evaluates the degrees once per layer; both evaluations are the same term of the same arguments.)
-/
import proofs.«138308_j34883724378711_1_alg».proof.Proof.Gen.ReferenceIdeal.Run
import proofs.«138308_j34883724378711_1_alg».proof.Proof.GcnSpec

noncomputable section

namespace Cert.ReferenceIdeal.RefValue

open Idealize.ShloMosaic Idealize.ShloMosaic.TcCoe Idealize.SL.Sem Cert.ReferenceIdeal

variable {F : FTy → Type} [FloatOps F]

set_option maxRecDepth 8192 in
/-- The reference's result is the network of its arguments. -/
theorem result_eq (m : (ℓ : Loc nD τ sig) → Buf (Elt F) ℓ) (c : Dev nD) :
    Cert.ReferenceIdeal.Value.res_main_v98 m c
      = Cert.Gcn.gcn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold Cert.ReferenceIdeal.Value.res_main_v98 Cert.Gcn.gcn Cert.Gcn.layer32 Cert.Gcn.layer48 Cert.Gcn.relu48 Cert.Gcn.edgeNorm
    Cert.Gcn.dinvOf Cert.Gcn.degOf Cert.Gcn.wrap Cert.Gcn.srcOf Cert.Gcn.dstOf
  rfl

end Cert.ReferenceIdeal.RefValue

end
-- ==== Proof.ResultRun.lean ====
/-
  The kernel program's run with its result named.  The program is two pipelined matrix products among stretches of host
  operations; running the segments in order, every buffer that is not scoped to a region ends at the contents the last
  stretch leaves (`Gen.W7`: the fold of the host stretches and of the two regions' write-backs from the launch memory).
  Read at the result buffer this is the value the program returns; read at the arguments it is the launch memory.
-/
import proofs.«138308_j34883724378711_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments as
    launched. -/
theorem run_result : θ_run defs (onTc (τ := τ) (main (F := F))) ⟨m, fun _ => 0, ρ⟩ (fun r => ∀ c : Dev nD,
      r.2.mem ((c.tc : Thread nD τ).loc main_v89) = W7 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v89 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.ResultRun

end
-- ==== Proof.LibMatmulIdx.lean ====
/-
  A matrix product accumulated into zero, read entry by entry over the extended reals, for any extents: rows by columns
  (`[m, k] · [k, n]`, the entry at `(a, b)` is `∑ c, A (a, c) · B (c, b)`), and rows by rows (`[m, k]` against `[n, k]`, both
  contracted on their second coordinate: `∑ c, A (a, c) · B (b, c)`). The dimension numbers are written out literally, so
  a program's own record of them unifies with the statement by unfolding.
-/
import Idealize.ShloMosaic.Lib.ValueIdx
import Idealize.ShloMosaic.PureOps.Ideal.Laws

open scoped BigOperators

noncomputable section

namespace Cert.LibMatmulIdx

open Idealize.ShloMosaic Idealize.ShloMosaic.ValueIdx

/-! ## A matrix product into the zero splat, read at a row and a column -/

/-- Rows by columns: the entry at `(a, b)` of an `m × k` by `k × n` product accumulated into zero is the sum
    over the contracted coordinate of the products of the two entries. -/
theorem matmul_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

/-- Rows by rows: both operands contracted on their second coordinate. The entry at `(a, b)` of an `m × k` by
    `n × k` product accumulated into zero is the sum over the contracted coordinate of row `a` of the left times
    row `b` of the right. -/
theorem matmul_rr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    FloatOps.matmul (⟨[1], [1], [0], [0], [], [], w⟩ : DotDims ⟨2, ![m, k]⟩ ⟨2, ![n, k]⟩ ⟨2, ![m, n]⟩) prec A B
        (constant (F := Ideal) ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have hc := contrEquiv1_symm_val
    (⟨[1], [1], [0], [0], [], [], w⟩ : DotDims ⟨2, ![m, k]⟩ ⟨2, ![n, k]⟩ ⟨2, ![m, n]⟩) k rfl rfl c
  have hl : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact hc
  rw [hl, hr]

end Cert.LibMatmulIdx

end
-- ==== Proof.LibDotGeneralIdx.lean ====
/-
  The host's matrix product read entry by entry over the extended reals, for any extents: rows by columns
  (`[m, k] · [k, n]`, the entry at `(a, b)` is `∑ c, A (a, c) · B (c, b)`). The dimension numbers are written out
  literally, so a program's own record of them unifies with the statement by unfolding.
-/
import Idealize.ShloMosaic.Lib.ValueIdx
import Idealize.ShloMosaic.PureOps.Ideal.Laws

open scoped BigOperators

noncomputable section

namespace Cert.LibDotGeneralIdx

open Idealize.ShloMosaic Idealize.ShloMosaic.ValueIdx

/-- Rows by columns on the host: the entry at `(a, b)` of an `m × k` by `k × n` product is the sum over the
    contracted coordinate of the products of the two entries. -/
theorem dotGeneral_rc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (F := Ideal) (⟨[1], [0], [0], [1], [], [], w⟩ : DotDims ⟨2, ![m, k]⟩ ⟨2, ![k, n]⟩ ⟨2, ![m, n]⟩) prec A B
        (ix2 a b)
      = ∑ c : Fin k, A (ix2 a c) * B (ix2 c b) := by
  simp only [Host.dotGeneral]
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val
    (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

end Cert.LibDotGeneralIdx

end
-- ==== Proof.Product0.lean ====
/-
  Region 0 of the kernel program computes a matrix product by bands of rows.  The grid has ten points; point `t` reads
  rows `10000·t … 10000·t + 9999` of the left array (a `[10000, 128]` block), the whole `[128, 48]` right array, and writes
  the `[10000, 48]` block of products back to the same rows of the output.  An entry of a product depends on the left operand only
  through its own row, so the block point `t` writes is the band of rows `10000·t …` of the product of the two WHOLE arrays; the
  ten bands tile the output, which therefore ends holding that product.  (Rounding the operands to a shorter float format
  is the identity on the extended reals, and a product accumulated into zero is the plain sum of products.)
-/
import proofs.«138308_j34883724378711_1_alg».proof.Proof.Gen.KernelIdeal.Frame
import proofs.«138308_j34883724378711_1_alg».proof.Proof.Gen.ReferenceIdeal
import proofs.«138308_j34883724378711_1_alg».proof.Proof.LibMatmulIdx
import proofs.«138308_j34883724378711_1_alg».proof.Proof.LibDotGeneralIdx
import Idealize.ShloMosaic.Lib.Pipeline.Value
import Idealize.ShloMosaic.Lib.ValueIdx

set_option maxRecDepth 16384

open scoped BigOperators

noncomputable section

namespace Cert.KernelIdeal.Product0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole-array product's dimension numbers: rows of the left operand against columns of the right. -/
abbrev dims := Cert.ReferenceIdeal.dot_S100000x128_S128x48_S100000x48_1_0_0_1_n_n

/-- Entry `(a, b)` of a band's product is entry `(p, b)` of the whole product when row `a` of the band is row `p` of the
    whole left array and the right operands agree on column `b`: both are the sum over `k` of left `(·, k)` times right `(k, b)`. -/
theorem band_entry (x0 : Vec Ideal S10000x128 .f32) (x1 : Vec Ideal S128x48 .f32)
    (X : FVec Ideal S100000x128 .f32) (Y : FVec Ideal S128x48 .f32) (a : Fin 10000) (b : Fin 48) (p : Fin 100000)
    (hx : ∀ k : Fin 128, x0 (ix2 a k) = X (ix2 p k)) (hy : ∀ k : Fin 128, x1 (ix2 k b) = Y (ix2 k b)) :
    k0_pay1 x0 x1 (ix2 a b) = Host.dotGeneral (F := Ideal) (φ₁ := .f32) (φ₂ := .f32) dims none X Y (ix2 p b) := by
  unfold k0_pay1
  refine (Cert.LibMatmulIdx.matmul_rc_apply (m := 10000) (k := 128) (n := 48)
    dot_S10000x128_S128x48_S10000x48_1_0_0_1_n_n.wf none _ _ a b).trans ?_
  refine Eq.trans ?_ (Cert.LibDotGeneralIdx.dotGeneral_rc_apply (m := 100000) (k := 128) (n := 48) dims.wf none X Y p b).symm
  refine Finset.sum_congr rfl fun k _ => ?_
  rw [truncf_apply, truncf_apply, hx k, hy k]

variable (V : (c : Dev nD) → (b : Ref sig .tc) → Buf (Elt Ideal) ((c : Thread nD τ).loc b))

/-- The product of the two arrays the region reads, as the region finds them. -/
def whole (c : Dev nD) : FVec Ideal S100000x48 .f32 :=
  Host.dotGeneral (F := Ideal) (φ₁ := .f32) (φ₂ := .f32) dims none (V c main_arg0) (V c main_arg3)

/-- The printed index maps over the grid: the left and the output windows move down one block of rows per point, the
    right window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `a` of the left window's block at point `t` is row `10000·t + a` of the left array. -/
theorem left_row (c : Dev nD) (t : Fin cfg0.N) (a : Fin 10000) (k : Fin 128) (p : Fin 100000) (hp : p.val = t.val * 10000 + a.val) :
    (iblk0 V c 0 t : Vec Ideal S10000x128 .f32) (ix2 a k) = (V c main_arg0 : FVec Ideal S100000x128 .f32) (ix2 p k) := by
  obtain ⟨e0, e1, e2, e3, e4, e5⟩ := idx_facts t
  unfold iblk0
  rw [View.read_apply]
  show V c main_arg0 (((cfg0.win 0).blk t).view.emb (ix2 a k)) = V c main_arg0 (ix2 p k)
  refine congrArg _ ?_
  funext ax; apply Fin.ext
  match ax with
  | ⟨0, _⟩ => show win0_0.index t (0 : Fin 2) * 10000 + 1 * a.val = p.val; omega
  | ⟨1, _⟩ => show win0_0.index t (1 : Fin 2) * 128 + 1 * k.val = k.val; omega

/-- The right window's block at every point is the whole right array. -/
theorem right_all (c : Dev nD) (t : Fin cfg0.N) (k : Fin 128) (b : Fin 48) :
    (iblk0 V c 1 t : Vec Ideal S128x48 .f32) (ix2 k b) = (V c main_arg3 : FVec Ideal S128x48 .f32) (ix2 k b) := by
  obtain ⟨e0, e1, e2, e3, e4, e5⟩ := idx_facts t
  unfold iblk0
  rw [View.read_apply]
  show V c main_arg3 (((cfg0.win 1).blk t).view.emb (ix2 k b)) = V c main_arg3 (ix2 k b)
  refine congrArg _ ?_
  funext ax; apply Fin.ext
  match ax with
  | ⟨0, _⟩ => show win0_1.index t (0 : Fin 2) * 128 + 1 * k.val = k.val; omega
  | ⟨1, _⟩ => show win0_1.index t (1 : Fin 2) * 48 + 1 * b.val = b.val; omega

/-- What the body leaves at point `t`, entry by entry, is the whole product read through the output's block at `t`. -/
theorem block_entry (c : Dev nD) (t : Fin cfg0.N) (j : S10000x48.Idx) :
    k0_pay1 (iblk0 V c 0 t) (iblk0 V c 1 t) j = whole V c (((cfg0.win 2).blk t).view.emb j) := by
  obtain ⟨e0, e1, e2, e3, e4, e5⟩ := idx_facts t
  obtain ⟨a, b, rfl⟩ : ∃ (a : Fin 10000) (b : Fin 48), j = ix2 a b := ⟨j 0, j 1, eq_ix2 j⟩
  have hN : cfg0.N = 10 := N_0
  have ht : t.val < 10 := hN ▸ t.isLt
  have ha : a.val < 10000 := a.isLt
  refine (band_entry (iblk0 V c 0 t) (iblk0 V c 1 t) (V c main_arg0) (V c main_arg3) a b ⟨t.val * 10000 + a.val, by omega⟩
    (fun k => left_row V c t a k _ rfl) (fun k => right_all V c t k b)).trans ?_
  unfold whole
  refine congrArg _ ?_
  funext ax; apply Fin.ext
  match ax with
  | ⟨0, _⟩ => show t.val * 10000 + a.val = win0_2.index t (0 : Fin 2) * 10000 + 1 * a.val; omega
  | ⟨1, _⟩ => show b.val = win0_2.index t (1 : Fin 2) * 48 + 1 * b.val; omega

/-- What point `t` writes back is block `t` of the whole product. -/
theorem flushed_eq (c : Dev nD) (t : Fin cfg0.N) :
    (dat0 V c).flushed 2 t = ((cfg0.win 2).blk t).view.read (Elt Ideal) (whole V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x48) hz]
  funext j
  exact block_entry V c t j

/-- An index of the output is in point `t`'s block iff each coordinate is in the block's range on its axis. -/
theorem mem_blk (t : Fin cfg0.N) (i : S100000x48.Idx) :
    i ∈ ((cfg0.win 2).blk t).view.set ↔ ∀ a : Fin 2, win0_2.index t a * S10000x48.size a ≤ (i a).val ∧ (i a).val < win0_2.index t a * S10000x48.size a + S10000x48.size a := by
  show i ∈ ((View.whole main_v13).slice (win0_2.rect t)).set ↔ _
  rw [View.set_slice_whole, Rect.mem_set_unit]
  exact Iff.rfl

/-- Row `r` of the output lies in the block of point `r / 10000`: the ten bands tile the output. -/
theorem cover (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  have hN : cfg0.N = 10 := N_0
  have hlt : (i 0).val / 10000 < cfg0.N := by rw [hN]; omega
  obtain ⟨e0, e1, e2, e3, e4, e5⟩ := idx_facts ⟨(i 0).val / 10000, hlt⟩
  refine ⟨⟨(i 0).val / 10000, hlt⟩, flush0_2 _, ?_⟩
  rw [mem_blk]
  intro a
  match a with
  | ⟨0, _⟩ =>
    show win0_2.index ⟨(i 0).val / 10000, hlt⟩ (0 : Fin 2) * 10000 ≤ (i 0).val ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 48 ≤ (i 1).val ∧ (i 1).val < win0_2.index ⟨(i 0).val / 10000, hlt⟩ (1 : Fin 2) * 48 + 48
    rw [e5]; omega

/-- The output array after the region is the product of the two arrays the region read. -/
theorem arr_eq (c : Dev nD) : (dat0 V c).arrAt 2 cfg0.N = whole V c :=
  (dat0 V c).arrAt_eq_of_cover 2 (whole V c) (fun t _ => flushed_eq V c t) cover

end Cert.KernelIdeal.Product0

end
-- ==== Proof.Product1.lean ====
/-
  Region 1 of the kernel program computes a matrix product by bands of rows.  The grid has ten points; point `t` reads
  rows `10000·t … 10000·t + 9999` of the left array (a `[10000, 48]` block), the whole `[48, 32]` right array, and writes
  the `[10000, 32]` block of products back to the same rows of the output.  An entry of a product depends on the left operand only
  through its own row, so the block point `t` writes is the band of rows `10000·t …` of the product of the two WHOLE arrays; the
  ten bands tile the output, which therefore ends holding that product.  (Rounding the operands to a shorter float format
  is the identity on the extended reals, and a product accumulated into zero is the plain sum of products.)
-/
import proofs.«138308_j34883724378711_1_alg».proof.Proof.Gen.KernelIdeal.Frame
import proofs.«138308_j34883724378711_1_alg».proof.Proof.Gen.ReferenceIdeal
import proofs.«138308_j34883724378711_1_alg».proof.Proof.LibMatmulIdx
import proofs.«138308_j34883724378711_1_alg».proof.Proof.LibDotGeneralIdx
import Idealize.ShloMosaic.Lib.Pipeline.Value
import Idealize.ShloMosaic.Lib.ValueIdx

set_option maxRecDepth 16384

open scoped BigOperators

noncomputable section

namespace Cert.KernelIdeal.Product1

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The whole-array product's dimension numbers: rows of the left operand against columns of the right. -/
abbrev dims := Cert.ReferenceIdeal.dot_S100000x48_S48x32_S100000x32_1_0_0_1_n_n

/-- Entry `(a, b)` of a band's product is entry `(p, b)` of the whole product when row `a` of the band is row `p` of the
    whole left array and the right operands agree on column `b`: both are the sum over `k` of left `(·, k)` times right `(k, b)`. -/
theorem band_entry (x0 : Vec Ideal S10000x48 .f32) (x1 : Vec Ideal S48x32 .f32)
    (X : FVec Ideal S100000x48 .f32) (Y : FVec Ideal S48x32 .f32) (a : Fin 10000) (b : Fin 32) (p : Fin 100000)
    (hx : ∀ k : Fin 48, x0 (ix2 a k) = X (ix2 p k)) (hy : ∀ k : Fin 48, x1 (ix2 k b) = Y (ix2 k b)) :
    k1_pay1 x0 x1 (ix2 a b) = Host.dotGeneral (F := Ideal) (φ₁ := .f32) (φ₂ := .f32) dims none X Y (ix2 p b) := by
  unfold k1_pay1
  refine (Cert.LibMatmulIdx.matmul_rc_apply (m := 10000) (k := 48) (n := 32)
    dot_S10000x48_S48x32_S10000x32_1_0_0_1_n_n.wf none _ _ a b).trans ?_
  refine Eq.trans ?_ (Cert.LibDotGeneralIdx.dotGeneral_rc_apply (m := 100000) (k := 48) (n := 32) dims.wf none X Y p b).symm
  refine Finset.sum_congr rfl fun k _ => ?_
  rw [truncf_apply, truncf_apply, shapeCast_self, hx k, hy k]

variable (V : (c : Dev nD) → (b : Ref sig .tc) → Buf (Elt Ideal) ((c : Thread nD τ).loc b))

/-- The product of the two arrays the region reads, as the region finds them. -/
def whole (c : Dev nD) : FVec Ideal S100000x32 .f32 :=
  Host.dotGeneral (F := Ideal) (φ₁ := .f32) (φ₂ := .f32) dims none (V c main_v51) (V c main_arg5)

/-- The printed index maps over the grid: the left and the output windows move down one block of rows per point, the
    right window stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Row `a` of the left window's block at point `t` is row `10000·t + a` of the left array. -/
theorem left_row (c : Dev nD) (t : Fin cfg1.N) (a : Fin 10000) (k : Fin 48) (p : Fin 100000) (hp : p.val = t.val * 10000 + a.val) :
    (iblk1 V c 0 t : Vec Ideal S10000x48 .f32) (ix2 a k) = (V c main_v51 : FVec Ideal S100000x48 .f32) (ix2 p k) := by
  obtain ⟨e0, e1, e2, e3, e4, e5⟩ := idx_facts t
  unfold iblk1
  rw [View.read_apply]
  show V c main_v51 (((cfg1.win 0).blk t).view.emb (ix2 a k)) = V c main_v51 (ix2 p k)
  refine congrArg _ ?_
  funext ax; apply Fin.ext
  match ax with
  | ⟨0, _⟩ => show win1_0.index t (0 : Fin 2) * 10000 + 1 * a.val = p.val; omega
  | ⟨1, _⟩ => show win1_0.index t (1 : Fin 2) * 48 + 1 * k.val = k.val; omega

/-- The right window's block at every point is the whole right array. -/
theorem right_all (c : Dev nD) (t : Fin cfg1.N) (k : Fin 48) (b : Fin 32) :
    (iblk1 V c 1 t : Vec Ideal S48x32 .f32) (ix2 k b) = (V c main_arg5 : FVec Ideal S48x32 .f32) (ix2 k b) := by
  obtain ⟨e0, e1, e2, e3, e4, e5⟩ := idx_facts t
  unfold iblk1
  rw [View.read_apply]
  show V c main_arg5 (((cfg1.win 1).blk t).view.emb (ix2 k b)) = V c main_arg5 (ix2 k b)
  refine congrArg _ ?_
  funext ax; apply Fin.ext
  match ax with
  | ⟨0, _⟩ => show win1_1.index t (0 : Fin 2) * 48 + 1 * k.val = k.val; omega
  | ⟨1, _⟩ => show win1_1.index t (1 : Fin 2) * 32 + 1 * b.val = b.val; omega

/-- What the body leaves at point `t`, entry by entry, is the whole product read through the output's block at `t`. -/
theorem block_entry (c : Dev nD) (t : Fin cfg1.N) (j : S10000x32.Idx) :
    k1_pay1 (iblk1 V c 0 t) (iblk1 V c 1 t) j = whole V c (((cfg1.win 2).blk t).view.emb j) := by
  obtain ⟨e0, e1, e2, e3, e4, e5⟩ := idx_facts t
  obtain ⟨a, b, rfl⟩ : ∃ (a : Fin 10000) (b : Fin 32), j = ix2 a b := ⟨j 0, j 1, eq_ix2 j⟩
  have hN : cfg1.N = 10 := N_1
  have ht : t.val < 10 := hN ▸ t.isLt
  have ha : a.val < 10000 := a.isLt
  refine (band_entry (iblk1 V c 0 t) (iblk1 V c 1 t) (V c main_v51) (V c main_arg5) a b ⟨t.val * 10000 + a.val, by omega⟩
    (fun k => left_row V c t a k _ rfl) (fun k => right_all V c t k b)).trans ?_
  unfold whole
  refine congrArg _ ?_
  funext ax; apply Fin.ext
  match ax with
  | ⟨0, _⟩ => show t.val * 10000 + a.val = win1_2.index t (0 : Fin 2) * 10000 + 1 * a.val; omega
  | ⟨1, _⟩ => show b.val = win1_2.index t (1 : Fin 2) * 32 + 1 * b.val; omega

/-- What point `t` writes back is block `t` of the whole product. -/
theorem flushed_eq (c : Dev nD) (t : Fin cfg1.N) :
    (dat1 V c).flushed 2 t = ((cfg1.win 2).blk t).view.read (Elt Ideal) (whole V c) := by
  show (cfg1.win 2).cut (grid1.coords t) ((dat1 V c).after 2 t) = _
  rw [after1_2]
  unfold out1_2
  rw [View.canon_unit_zero hz]
  simp only [View.ld_unit_zero (S := S10000x48) hz, View.ld_unit_zero (S := S48x32) hz]
  funext j
  exact block_entry V c t j

/-- An index of the output is in point `t`'s block iff each coordinate is in the block's range on its axis. -/
theorem mem_blk (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v52).slice (win1_2.rect t)).set ↔ _
  rw [View.set_slice_whole, Rect.mem_set_unit]
  exact Iff.rfl

/-- Row `r` of the output lies in the block of point `r / 10000`: the ten bands tile the output. -/
theorem cover (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := N_1
  have hlt : (i 0).val / 10000 < cfg1.N := by rw [hN]; omega
  obtain ⟨e0, e1, e2, e3, e4, e5⟩ := idx_facts ⟨(i 0).val / 10000, hlt⟩
  refine ⟨⟨(i 0).val / 10000, hlt⟩, flush1_2 _, ?_⟩
  rw [mem_blk]
  intro a
  match a with
  | ⟨0, _⟩ =>
    show win1_2.index ⟨(i 0).val / 10000, hlt⟩ (0 : Fin 2) * 10000 ≤ (i 0).val ∧ (i 0).val < win1_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ (1 : Fin 2) * 32 ≤ (i 1).val ∧ (i 1).val < win1_2.index ⟨(i 0).val / 10000, hlt⟩ (1 : Fin 2) * 32 + 32
    rw [e5]; omega

/-- The output array after the region is the product of the two arrays the region read. -/
theorem arr_eq (c : Dev nD) : (dat1 V c).arrAt 2 cfg1.N = whole V c :=
  (dat1 V c).arrAt_eq_of_cover 2 (whole V c) (fun t _ => flushed_eq V c t) cover

end Cert.KernelIdeal.Product1

end
-- ==== Proof.HostPre.lean ====
/-
  The host operations before the first product, from any starting contents: they cut the edge table into its two rows,
  sum the edge weights at the edges' destinations, add one for the self-loop, and select the inverse square root where the
  degree is positive.  The arguments and nothing else they read are overwritten.
-/
import proofs.«138308_j34883724378711_1_alg».proof.Proof.Gen.KernelIdeal.Launch
import proofs.«138308_j34883724378711_1_alg».proof.Proof.GcnSpec
import Idealize.ShloMosaic.Lib.StableHlo.Run
import Idealize.ShloMosaic.PureOps.Ideal

set_option maxRecDepth 16384

noncomputable section

namespace Cert.KernelIdeal.HostPre

open Cert.KernelIdeal Cert.KernelIdeal.Gen
open Idealize.ShloMosaic Idealize.ShloMosaic.TcCoe Idealize.SL.Sem Idealize.ShloMosaic.StableHlo

variable (Vb : Valuation τ sig (Elt Ideal))

/-! ## The first stretch: endpoints, degrees, the test and the root -/

set_option maxHeartbeats 2000000 in
theorem src_after : StableHlo.after hostOps0 Vb (Proc.devRef .tc main_v1) = Cert.Gcn.srcOf (F := Ideal) (Vb (Proc.devRef .tc main_arg1)) := by
  simp only [hostOps0]
  after_results_simp
  rfl

set_option maxHeartbeats 2000000 in
theorem dst_after : StableHlo.after hostOps0 Vb (Proc.devRef .tc main_v3) = Cert.Gcn.dstOf (F := Ideal) (Vb (Proc.devRef .tc main_arg1)) := by
  simp only [hostOps0]
  after_results_simp
  rfl

set_option maxHeartbeats 2000000 in
/-- Where the degree is positive. -/
theorem pos_after : StableHlo.after hostOps0 Vb (Proc.devRef .tc main_v10)
    = cmpf .ogt (Cert.Gcn.degOf (F := Ideal) (Cert.Gcn.dstOf (Vb (Proc.devRef .tc main_arg1))) (Vb (Proc.devRef .tc main_arg2)))
        (broadcastInDim S100000 ![] bcast_S_S100000 (constant S_ .f32 0x00000000#32)) := by
  simp only [hostOps0]
  after_results_simp
  rfl

set_option maxHeartbeats 2000000 in
/-- The degree's inverse square root. -/
theorem root_after : StableHlo.after hostOps0 Vb (Proc.devRef .tc main_v11)
    = Host.rsqrt (Cert.Gcn.degOf (F := Ideal) (Cert.Gcn.dstOf (Vb (Proc.devRef .tc main_arg1))) (Vb (Proc.devRef .tc main_arg2))) := by
  simp only [hostOps0]
  after_results_simp
  rfl

set_option maxHeartbeats 2000000 in
/-- The value used where the degree is not positive. -/
theorem zero_after : StableHlo.after hostOps0 Vb (Proc.devRef .tc main_cst_2) = constant (F := Ideal) S_ .f32 0x00000000#32 := by
  simp only [hostOps0]
  after_results_simp

/-! ## The selection -/

set_option maxHeartbeats 2000000 in
theorem select_after : StableHlo.after hostOps0_1 Vb (Proc.devRef .tc main_v12)
    = select ((Vb (Proc.devRef .tc main_v10)) : Vec Ideal S100000 .i1) ((Vb (Proc.devRef .tc main_v11)) : FVec Ideal S100000 .f32)
        (broadcastInDim S100000 ![] bcast_S_S100000 (id ((Vb (Proc.devRef .tc main_cst_2)) : FVec Ideal S_ .f32))) := by
  simp only [hostOps0_1]
  after_results_simp
  rfl

/-- The two stretches together leave the inverse square roots of the degrees. -/
theorem dinv_after : StableHlo.after hostOps0_1 (StableHlo.after hostOps0 Vb) (Proc.devRef .tc main_v12)
    = Cert.Gcn.dinvOf (F := Ideal) (Cert.Gcn.dstOf (Vb (Proc.devRef .tc main_arg1))) (Vb (Proc.devRef .tc main_arg2)) := by
  rw [select_after, pos_after, root_after, zero_after]
  rfl

set_option maxHeartbeats 2000000 in
theorem src_kept : StableHlo.after hostOps0_1 (StableHlo.after hostOps0 Vb) (Proc.devRef .tc main_v1) = Cert.Gcn.srcOf (F := Ideal) (Vb (Proc.devRef .tc main_arg1)) := by
  refine Eq.trans ?_ (src_after Vb)
  simp only [hostOps0_1]
  after_results_simp

set_option maxHeartbeats 2000000 in
theorem dst_kept : StableHlo.after hostOps0_1 (StableHlo.after hostOps0 Vb) (Proc.devRef .tc main_v3) = Cert.Gcn.dstOf (F := Ideal) (Vb (Proc.devRef .tc main_arg1)) := by
  refine Eq.trans ?_ (dst_after Vb)
  simp only [hostOps0_1]
  after_results_simp

/-! ## What the two stretches leave alone -/

set_option maxHeartbeats 2000000 in
theorem keep_arg0 : StableHlo.after hostOps0_1 (StableHlo.after hostOps0 Vb) (Proc.devRef .tc main_arg0) = Vb (Proc.devRef .tc main_arg0) := by
  simp only [hostOps0_1, hostOps0]
  after_results_simp

set_option maxHeartbeats 2000000 in
theorem keep_arg2 : StableHlo.after hostOps0_1 (StableHlo.after hostOps0 Vb) (Proc.devRef .tc main_arg2) = Vb (Proc.devRef .tc main_arg2) := by
  simp only [hostOps0_1, hostOps0]
  after_results_simp

set_option maxHeartbeats 2000000 in
theorem keep_arg3 : StableHlo.after hostOps0_1 (StableHlo.after hostOps0 Vb) (Proc.devRef .tc main_arg3) = Vb (Proc.devRef .tc main_arg3) := by
  simp only [hostOps0_1, hostOps0]
  after_results_simp

set_option maxHeartbeats 2000000 in
theorem keep_arg4 : StableHlo.after hostOps0_1 (StableHlo.after hostOps0 Vb) (Proc.devRef .tc main_arg4) = Vb (Proc.devRef .tc main_arg4) := by
  simp only [hostOps0_1, hostOps0]
  after_results_simp

set_option maxHeartbeats 2000000 in
theorem keep_arg5 : StableHlo.after hostOps0_1 (StableHlo.after hostOps0 Vb) (Proc.devRef .tc main_arg5) = Vb (Proc.devRef .tc main_arg5) := by
  simp only [hostOps0_1, hostOps0]
  after_results_simp

set_option maxHeartbeats 2000000 in
theorem keep_arg6 : StableHlo.after hostOps0_1 (StableHlo.after hostOps0 Vb) (Proc.devRef .tc main_arg6) = Vb (Proc.devRef .tc main_arg6) := by
  simp only [hostOps0_1, hostOps0]
  after_results_simp

end Cert.KernelIdeal.HostPre

end
-- ==== Proof.HostLayer1.lean ====
/-
  The host operations between the two products, from any starting contents: the first layer's aggregation of the first
  product (messages gathered at the edges' sources, scaled, summed at the destinations; the self-loop term; the bias), then
  the rectifier.  They overwrite none of the buffers the second layer reads.
-/
import proofs.«138308_j34883724378711_1_alg».proof.Proof.Gen.KernelIdeal.Launch
import proofs.«138308_j34883724378711_1_alg».proof.Proof.GcnSpec
import Idealize.ShloMosaic.Lib.StableHlo.Run
import Idealize.ShloMosaic.PureOps.Ideal

set_option maxRecDepth 16384

noncomputable section

namespace Cert.KernelIdeal.HostLayer1

open Cert.KernelIdeal Cert.KernelIdeal.Gen
open Idealize.ShloMosaic Idealize.ShloMosaic.TcCoe Idealize.SL.Sem Idealize.ShloMosaic.StableHlo

variable (Vb : Valuation τ sig (Elt Ideal))

set_option maxHeartbeats 8000000 in
/-- The aggregation. -/
theorem agg_after : StableHlo.after hostOps1 Vb (Proc.devRef .tc main_v50)
    = Cert.Gcn.layer48 (F := Ideal) (Vb (Proc.devRef .tc main_v13)) (Vb (Proc.devRef .tc main_v12)) (Vb (Proc.devRef .tc main_v1)) (Vb (Proc.devRef .tc main_v3)) (Vb (Proc.devRef .tc main_arg2)) (Vb (Proc.devRef .tc main_arg4)) := by
  simp only [hostOps1]
  after_results_simp
  rfl

set_option maxHeartbeats 2000000 in
/-- The rectifier. -/
theorem relu_after : StableHlo.after hostOps1_1 Vb (Proc.devRef .tc main_v51) = Cert.Gcn.relu48 (F := Ideal) (Vb (Proc.devRef .tc main_v50)) := by
  simp only [hostOps1_1]
  after_results_simp
  rfl

/-- Together: the rectified first layer of the first product. -/
theorem hidden_after : StableHlo.after hostOps1_1 (StableHlo.after hostOps1 Vb) (Proc.devRef .tc main_v51)
    = Cert.Gcn.relu48 (F := Ideal) (Cert.Gcn.layer48 (Vb (Proc.devRef .tc main_v13)) (Vb (Proc.devRef .tc main_v12)) (Vb (Proc.devRef .tc main_v1)) (Vb (Proc.devRef .tc main_v3)) (Vb (Proc.devRef .tc main_arg2)) (Vb (Proc.devRef .tc main_arg4))) := by
  rw [relu_after, agg_after]

/-! ## What the two stretches leave alone -/

set_option maxHeartbeats 4000000 in
theorem keep_src : StableHlo.after hostOps1_1 (StableHlo.after hostOps1 Vb) (Proc.devRef .tc main_v1) = Vb (Proc.devRef .tc main_v1) := by
  simp only [hostOps1_1, hostOps1]
  after_results_simp

set_option maxHeartbeats 4000000 in
theorem keep_dst : StableHlo.after hostOps1_1 (StableHlo.after hostOps1 Vb) (Proc.devRef .tc main_v3) = Vb (Proc.devRef .tc main_v3) := by
  simp only [hostOps1_1, hostOps1]
  after_results_simp

set_option maxHeartbeats 4000000 in
theorem keep_dinv : StableHlo.after hostOps1_1 (StableHlo.after hostOps1 Vb) (Proc.devRef .tc main_v12) = Vb (Proc.devRef .tc main_v12) := by
  simp only [hostOps1_1, hostOps1]
  after_results_simp

set_option maxHeartbeats 4000000 in
theorem keep_arg2 : StableHlo.after hostOps1_1 (StableHlo.after hostOps1 Vb) (Proc.devRef .tc main_arg2) = Vb (Proc.devRef .tc main_arg2) := by
  simp only [hostOps1_1, hostOps1]
  after_results_simp

set_option maxHeartbeats 4000000 in
theorem keep_arg5 : StableHlo.after hostOps1_1 (StableHlo.after hostOps1 Vb) (Proc.devRef .tc main_arg5) = Vb (Proc.devRef .tc main_arg5) := by
  simp only [hostOps1_1, hostOps1]
  after_results_simp

set_option maxHeartbeats 4000000 in
theorem keep_arg6 : StableHlo.after hostOps1_1 (StableHlo.after hostOps1 Vb) (Proc.devRef .tc main_arg6) = Vb (Proc.devRef .tc main_arg6) := by
  simp only [hostOps1_1, hostOps1]
  after_results_simp

end Cert.KernelIdeal.HostLayer1

end
-- ==== Proof.HostLayer2.lean ====
/-
  The host operations after the second product, from any starting contents: the second layer's aggregation of the second
  product, which is the program's result.
-/
import proofs.«138308_j34883724378711_1_alg».proof.Proof.Gen.KernelIdeal.Launch
import proofs.«138308_j34883724378711_1_alg».proof.Proof.GcnSpec
import Idealize.ShloMosaic.Lib.StableHlo.Run
import Idealize.ShloMosaic.PureOps.Ideal

set_option maxRecDepth 16384

noncomputable section

namespace Cert.KernelIdeal.HostLayer2

open Cert.KernelIdeal Cert.KernelIdeal.Gen
open Idealize.ShloMosaic Idealize.ShloMosaic.TcCoe Idealize.SL.Sem Idealize.ShloMosaic.StableHlo

variable (Vb : Valuation τ sig (Elt Ideal))

set_option maxHeartbeats 8000000 in
theorem agg_after : StableHlo.after hostOps2 Vb (Proc.devRef .tc main_v89)
    = Cert.Gcn.layer32 (F := Ideal) (Vb (Proc.devRef .tc main_v52)) (Vb (Proc.devRef .tc main_v12)) (Vb (Proc.devRef .tc main_v1)) (Vb (Proc.devRef .tc main_v3)) (Vb (Proc.devRef .tc main_arg2)) (Vb (Proc.devRef .tc main_arg6)) := by
  simp only [hostOps2]
  after_results_simp
  rfl

end Cert.KernelIdeal.HostLayer2

end
-- ==== Proof.ResultValue.lean ====
/-
  What the kernel program returns, as a term of its arguments.  The contents at the last boundary are a fold through the
  program: host operations (the edge endpoints, the degrees and their inverse square roots), the first pipelined product,
  host operations (the first layer's aggregation and the rectifier), the second pipelined product, host operations (the
  second layer's aggregation).  Each stretch is read at the buffers the next one needs; a buffer a stretch or a region does
  not write keeps its contents; a region's output array holds the product of the two arrays it read.  Composed, the result
  buffer holds the two-layer network `Cert.Gcn.gcn` of the arguments.
-/
import proofs.«138308_j34883724378711_1_alg».proof.Proof.Gen.KernelIdeal.Frame
import proofs.«138308_j34883724378711_1_alg».proof.Proof.GcnSpec
import proofs.«138308_j34883724378711_1_alg».proof.Proof.Product0
import proofs.«138308_j34883724378711_1_alg».proof.Proof.Product1
import proofs.«138308_j34883724378711_1_alg».proof.Proof.HostPre
import proofs.«138308_j34883724378711_1_alg».proof.Proof.HostLayer1
import proofs.«138308_j34883724378711_1_alg».proof.Proof.HostLayer2

set_option maxRecDepth 16384

noncomputable section

namespace Cert.KernelIdeal.ResultValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## Before the first product: the arguments as launched, the edge endpoints, the inverse square roots of the degrees -/

theorem W2_arg0 : W2 m ρ c (Proc.devRef .tc main_arg0) = (m ((c : Thread nD τ).loc main_arg0)) := HostPre.keep_arg0 (W0 m ρ c)
theorem W2_arg2 : W2 m ρ c (Proc.devRef .tc main_arg2) = (m ((c : Thread nD τ).loc main_arg2)) := HostPre.keep_arg2 (W0 m ρ c)
theorem W2_arg3 : W2 m ρ c (Proc.devRef .tc main_arg3) = (m ((c : Thread nD τ).loc main_arg3)) := HostPre.keep_arg3 (W0 m ρ c)
theorem W2_arg4 : W2 m ρ c (Proc.devRef .tc main_arg4) = (m ((c : Thread nD τ).loc main_arg4)) := HostPre.keep_arg4 (W0 m ρ c)
theorem W2_arg5 : W2 m ρ c (Proc.devRef .tc main_arg5) = (m ((c : Thread nD τ).loc main_arg5)) := HostPre.keep_arg5 (W0 m ρ c)
theorem W2_arg6 : W2 m ρ c (Proc.devRef .tc main_arg6) = (m ((c : Thread nD τ).loc main_arg6)) := HostPre.keep_arg6 (W0 m ρ c)
theorem W2_src : W2 m ρ c (Proc.devRef .tc main_v1) = Cert.Gcn.srcOf (F := Ideal) (m ((c : Thread nD τ).loc main_arg1)) := HostPre.src_kept (W0 m ρ c)
theorem W2_dst : W2 m ρ c (Proc.devRef .tc main_v3) = Cert.Gcn.dstOf (F := Ideal) (m ((c : Thread nD τ).loc main_arg1)) := HostPre.dst_kept (W0 m ρ c)
theorem W2_dinv : W2 m ρ c (Proc.devRef .tc main_v12) = Cert.Gcn.dinvOf (F := Ideal) (Cert.Gcn.dstOf (m ((c : Thread nD τ).loc main_arg1))) (m ((c : Thread nD τ).loc main_arg2)) :=
  HostPre.dinv_after (W0 m ρ c)

/-! ## The first product, and what it leaves alone -/

/-- The first region's output is the features times the first weight matrix. -/
theorem W3_prod : W3 m ρ c (Proc.devRef .tc main_v13) = Host.dotGeneral (F := Ideal) (φ₁ := .f32) (φ₂ := .f32) Product0.dims none (m ((c : Thread nD τ).loc main_arg0)) (m ((c : Thread nD τ).loc main_arg3)) := by
  refine (W3_arr m ρ c 2).trans ((Product0.arr_eq (V2 m ρ) c).trans ?_)
  show Host.dotGeneral (F := Ideal) (φ₁ := .f32) (φ₂ := .f32) Product0.dims none (W2 m ρ c (Proc.devRef .tc main_arg0)) (W2 m ρ c (Proc.devRef .tc main_arg3)) = _
  rw [W2_arg0, W2_arg3]

theorem W3_src : W3 m ρ c (Proc.devRef .tc main_v1) = W2 m ρ c (Proc.devRef .tc main_v1) := W3_of_ne m ρ c main_v1 (by decide)
theorem W3_dst : W3 m ρ c (Proc.devRef .tc main_v3) = W2 m ρ c (Proc.devRef .tc main_v3) := W3_of_ne m ρ c main_v3 (by decide)
theorem W3_dinv : W3 m ρ c (Proc.devRef .tc main_v12) = W2 m ρ c (Proc.devRef .tc main_v12) := W3_of_ne m ρ c main_v12 (by decide)
theorem W3_arg2 : W3 m ρ c (Proc.devRef .tc main_arg2) = W2 m ρ c (Proc.devRef .tc main_arg2) := W3_of_ne m ρ c main_arg2 (by decide)
theorem W3_arg4 : W3 m ρ c (Proc.devRef .tc main_arg4) = W2 m ρ c (Proc.devRef .tc main_arg4) := W3_of_ne m ρ c main_arg4 (by decide)
theorem W3_arg5 : W3 m ρ c (Proc.devRef .tc main_arg5) = W2 m ρ c (Proc.devRef .tc main_arg5) := W3_of_ne m ρ c main_arg5 (by decide)
theorem W3_arg6 : W3 m ρ c (Proc.devRef .tc main_arg6) = W2 m ρ c (Proc.devRef .tc main_arg6) := W3_of_ne m ρ c main_arg6 (by decide)

/-! ## Between the products: the first layer's aggregation, rectified -/

/-- The second region's left operand is the rectified first layer of the first region's output. -/
theorem W5_hidden : W5 m ρ c (Proc.devRef .tc main_v51) = Cert.Gcn.relu48 (F := Ideal) (Cert.Gcn.layer48 (W3 m ρ c (Proc.devRef .tc main_v13)) (W3 m ρ c (Proc.devRef .tc main_v12))
    (W3 m ρ c (Proc.devRef .tc main_v1)) (W3 m ρ c (Proc.devRef .tc main_v3)) (W3 m ρ c (Proc.devRef .tc main_arg2)) (W3 m ρ c (Proc.devRef .tc main_arg4))) :=
  HostLayer1.hidden_after (W3 m ρ c)

theorem W5_src : W5 m ρ c (Proc.devRef .tc main_v1) = W3 m ρ c (Proc.devRef .tc main_v1) := HostLayer1.keep_src (W3 m ρ c)
theorem W5_dst : W5 m ρ c (Proc.devRef .tc main_v3) = W3 m ρ c (Proc.devRef .tc main_v3) := HostLayer1.keep_dst (W3 m ρ c)
theorem W5_dinv : W5 m ρ c (Proc.devRef .tc main_v12) = W3 m ρ c (Proc.devRef .tc main_v12) := HostLayer1.keep_dinv (W3 m ρ c)
theorem W5_arg2 : W5 m ρ c (Proc.devRef .tc main_arg2) = W3 m ρ c (Proc.devRef .tc main_arg2) := HostLayer1.keep_arg2 (W3 m ρ c)
theorem W5_arg5 : W5 m ρ c (Proc.devRef .tc main_arg5) = W3 m ρ c (Proc.devRef .tc main_arg5) := HostLayer1.keep_arg5 (W3 m ρ c)
theorem W5_arg6 : W5 m ρ c (Proc.devRef .tc main_arg6) = W3 m ρ c (Proc.devRef .tc main_arg6) := HostLayer1.keep_arg6 (W3 m ρ c)

/-! ## The second product, and what it leaves alone -/

/-- The second region's output is its left operand times the second weight matrix. -/
theorem W6_prod : W6 m ρ c (Proc.devRef .tc main_v52) = Host.dotGeneral (F := Ideal) (φ₁ := .f32) (φ₂ := .f32) Product1.dims none (W5 m ρ c (Proc.devRef .tc main_v51)) (W5 m ρ c (Proc.devRef .tc main_arg5)) :=
  (W6_arr m ρ c 2).trans (Product1.arr_eq (V5 m ρ) c)

theorem W6_src : W6 m ρ c (Proc.devRef .tc main_v1) = W5 m ρ c (Proc.devRef .tc main_v1) := W6_of_ne m ρ c main_v1 (by decide)
theorem W6_dst : W6 m ρ c (Proc.devRef .tc main_v3) = W5 m ρ c (Proc.devRef .tc main_v3) := W6_of_ne m ρ c main_v3 (by decide)
theorem W6_dinv : W6 m ρ c (Proc.devRef .tc main_v12) = W5 m ρ c (Proc.devRef .tc main_v12) := W6_of_ne m ρ c main_v12 (by decide)
theorem W6_arg2 : W6 m ρ c (Proc.devRef .tc main_arg2) = W5 m ρ c (Proc.devRef .tc main_arg2) := W6_of_ne m ρ c main_arg2 (by decide)
theorem W6_arg6 : W6 m ρ c (Proc.devRef .tc main_arg6) = W5 m ρ c (Proc.devRef .tc main_arg6) := W6_of_ne m ρ c main_arg6 (by decide)

/-! ## After the second product: the second layer's aggregation -/

/-- The result buffer holds the second layer of the second region's output. -/
theorem W7_out : W7 m ρ c (Proc.devRef .tc main_v89) = Cert.Gcn.layer32 (F := Ideal) (W6 m ρ c (Proc.devRef .tc main_v52)) (W6 m ρ c (Proc.devRef .tc main_v12))
    (W6 m ρ c (Proc.devRef .tc main_v1)) (W6 m ρ c (Proc.devRef .tc main_v3)) (W6 m ρ c (Proc.devRef .tc main_arg2)) (W6 m ρ c (Proc.devRef .tc main_arg6)) :=
  HostLayer2.agg_after (W6 m ρ c)

/-! ## Composed -/

/-- The result buffer at the last boundary holds the network of the arguments. -/
theorem result_eq : W7 m ρ c (Proc.devRef .tc main_v89)
    = Cert.Gcn.gcn (F := Ideal) (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  rw [W7_out, W6_prod, W6_dinv, W6_src, W6_dst, W6_arg2, W6_arg6,
    W5_hidden, W5_arg5, W5_dinv, W5_src, W5_dst, W5_arg2, W5_arg6,
    W3_prod, W3_dinv, W3_src, W3_dst, W3_arg2, W3_arg4, W3_arg5, W3_arg6,
    W2_dinv, W2_src, W2_dst, W2_arg2, W2_arg4, W2_arg5, W2_arg6]
  rfl

end Cert.KernelIdeal.ResultValue

end
-- ==== Proof.lean ====
/-
  Two stacked graph-convolution layers over 100000 nodes and 1600000 weighted edges, computed two ways.

  Both programs form, per layer, `h = (input) · W`, gather `h` along the edges' sources, scale each message by
  `dinv (src) · weight · dinv (dst)`, sum the messages at the edges' destinations, add the self-loop term `dinv² · h` and the
  bias; the first layer's output is rectified before the second.  Here `dinv` is the inverse square root of a node's degree
  (one plus the weights of its incoming edges) where that is positive.  The kernel program evaluates `dinv` once and forms
  each product `(input) · W` in a pipelined region, ten bands of 10000 rows at a time, with the operands rounded to a
  shorter float format on the way in; the reference evaluates `dinv` once per layer and forms each product whole.

  On the extended reals the rounding is the identity and a product accumulated into zero is the plain sum of products, and an
  entry of a matrix product depends on the left operand only through its own row; so each region's output array ends holding
  exactly the product the reference forms (`Product0`, `Product1`).  Everything else is the same host operations applied to
  the same values, carried as one function `Cert.Gcn.gcn` of the argument arrays (`GcnSpec`): the kernel program's result
  buffer holds it (`ResultRun`, `ResultValue`) and so does the reference's (`RefValue`).  No distributivity or cancellation is
  used anywhere, so the finiteness of the inputs is never needed.  The idealized kernel is the kernel's own text read over
  the extended reals (no operation was rewritten), and each program leaves its arguments as it found them.
-/
import proofs.«138308_j34883724378711_1_alg».proof.Defs
import proofs.«138308_j34883724378711_1_alg».proof.Proof.Gen.Kernel
import proofs.«138308_j34883724378711_1_alg».proof.Proof.Gen.Kernel.Skeleton
import proofs.«138308_j34883724378711_1_alg».proof.Proof.Gen.Kernel.Launch
import proofs.«138308_j34883724378711_1_alg».proof.Proof.Gen.Kernel.Points
import proofs.«138308_j34883724378711_1_alg».proof.Proof.Gen.Kernel.Frame
import proofs.«138308_j34883724378711_1_alg».proof.Proof.Gen.KernelIdeal
import proofs.«138308_j34883724378711_1_alg».proof.Proof.Gen.KernelIdeal.Skeleton
import proofs.«138308_j34883724378711_1_alg».proof.Proof.Gen.KernelIdeal.Launch
import proofs.«138308_j34883724378711_1_alg».proof.Proof.Gen.KernelIdeal.Points
import proofs.«138308_j34883724378711_1_alg».proof.Proof.Gen.KernelIdeal.Frame
import proofs.«138308_j34883724378711_1_alg».proof.Proof.Gen.ReferenceIdeal
import proofs.«138308_j34883724378711_1_alg».proof.Proof.Gen.Pre_finite_inputs
import proofs.«138308_j34883724378711_1_alg».proof.Proof.Gen.ReferenceIdeal.Run
import proofs.«138308_j34883724378711_1_alg».proof.Proof.GcnSpec
import proofs.«138308_j34883724378711_1_alg».proof.Proof.RefValue
import proofs.«138308_j34883724378711_1_alg».proof.Proof.ResultRun
import proofs.«138308_j34883724378711_1_alg».proof.Proof.ResultValue
import Idealize.ShloMosaic.Adequacy
import Idealize.ShloMosaic.Init

noncomputable section

namespace Cert.Proof

open Idealize.ShloMosaic Idealize.ShloMosaic.TcCoe Idealize.SL.Sem

/-- The kernel program as printed runs to the end and leaves its arguments unchanged. -/
theorem frame_kernel : Cert.frame_Kernel := fun m ρ _ => Cert.Kernel.Gen.frame m ρ

/-- So does the same text read over the extended reals. -/
theorem frame_kernel_ideal : Cert.frame_KernelIdeal := fun m ρ _ => Cert.KernelIdeal.Gen.frame m ρ

/-- The reference runs to the end and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was read over the extended reals. -/
theorem preserves : Cert.preserves_Kernel_KernelIdeal := trivial

/-- From memories that agree on the arguments, both programs end with the network `Cert.Gcn.gcn` of those arguments in
    their result buffers. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.ResultValue.result_eq m ρ c), (h c).2⟩)
      (Cert.KernelIdeal.ResultRun.run_result m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.result_eq, (hagree c).1, (hagree c).2.1, (hagree c).2.2.1, (hagree c).2.2.2.1,
      (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
